-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x1024 : Shape := ⟨3, ![8, 128, 1024]⟩
abbrev S1024 : Shape := ⟨1, ![1024]⟩
abbrev S_ : Shape := ⟨0, ![]⟩

class Facts : Prop where
  bcast_S_S8x128x1024 : S_.BroadcastsInDim S8x128x1024 (![] : Fin 0 → Fin S8x128x1024.rank)
  reducesTo_S8x128x1024_S_d0_1_2 : S8x128x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x128x1024 .f32) (main_arg1 : FVec F S1024 .f32) : IVec S_ 1 :=
  let main_v0 : FVec F S8x128x1024 .f32 := Host.absf main_arg0
  let main_cst : FVec F S_ .f32 := constant S_ .f32 0x7F800000#32
  let main_v1 : FVec F S8x128x1024 .f32 := broadcastInDim S8x128x1024 ![] bcast_S_S8x128x1024 main_cst
  let main_v2 : IVec S8x128x1024 1 := cmpf .olt main_v0 main_v1
  let main_c : IVec S_ 1 := constantI S_ 1 1#1
  let main_v3 : IVec S_ 1 := (fun x v => Host.reduce IntOp.andi x v reducesTo_S8x128x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S8x128x1024 : Shape := ⟨3, ![8, 128, 1024]⟩
abbrev S1024 : Shape := ⟨1, ![1024]⟩
abbrev S8x128x20x1024 : Shape := ⟨4, ![8, 128, 20, 1024]⟩
abbrev S1x64x1024 : Shape := ⟨3, ![1, 64, 1024]⟩
abbrev S1x64x20x1024 : Shape := ⟨4, ![1, 64, 20, 1024]⟩
abbrev S64x1024 : Shape := ⟨2, ![64, 1024]⟩
abbrev S1x1024 : Shape := ⟨2, ![1, 1024]⟩
abbrev S64x20x1024 : Shape := ⟨3, ![64, 20, 1024]⟩
abbrev S64x1x1024 : Shape := ⟨3, ![64, 1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8x128x1024, .f32⟩
  | .hbm, ⟨1, _⟩ => ⟨S1024, .f32⟩
  | .hbm, ⟨2, _⟩ => ⟨S8x128x20x1024, .f32⟩
  | .local _ .vmem, ⟨0, _⟩ => ⟨S1x64x1024, .f32⟩
  | .local _ .vmem, ⟨1, _⟩ => ⟨S1x64x1024, .f32⟩
  | .local _ .vmem, ⟨2, _⟩ => ⟨S1024, .f32⟩
  | .local _ .vmem, ⟨3, _⟩ => ⟨S1x64x20x1024, .f32⟩
  | .local _ .vmem, ⟨4, _⟩ => ⟨S1x64x20x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x20x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S64x1024 : S1x1024.Broadcasts S64x1024
  iota_S64x20x1024_d1_w32 : S64x20x1024.Iotas .tc 32 [1]
  shapeCasts_S64x1024_S64x1x1024 : S64x1024.ShapeCasts S64x1x1024
  broadcasts_S64x1x1024_S64x20x1024 : S64x1x1024.Broadcasts S64x20x1024
  natLt_1_32 : 1 < 32
  inb_S1x64x20x1024_S1x64x20x1024_0_0_0_0 : ∀ a, (![0, 0, 0, 0] : Fin 4 → Nat) a + S1x64x20x1024.size a ≤ S1x64x20x1024.size a
  h_S1x64x20x1024 : 0 < S1x64x20x1024.numel
  shapeCasts_S1x64x20x1024_S64x20x1024 : S1x64x20x1024.ShapeCasts S64x20x1024
  shapeCasts_S64x20x1024_S1x64x20x1024 : S64x20x1024.ShapeCasts S1x64x20x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1024.size a ≤ S8x128x1024.size a
  hwx0_0 : ∀ i : grid0.Coords, EltTy.bits .f32 = 32 ∨ (Rect.block (s := S8x128x1024) S1x64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x20x1024.size a ≤ S8x128x20x1024.size a
  hwx0_2 : ∀ i : grid0.Coords, EltTy.bits .f32 = 32 ∨ (Rect.block (s := S8x128x20x1024) S1x64x20x1024.size (cc0_transform_2 i) (hinb0_2 i)).WholeWords (EltTy.packing .f32)

variable [Facts₀]

abbrev win0_0 : Pipeline.Window sig grid0 :=
  Pipeline.Window.ofSpec (Memref.whole main_arg0) S1x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x20x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x128x1024 : Shape := ⟨3, ![8, 128, 1024]⟩
abbrev S1024 : Shape := ⟨1, ![1024]⟩
abbrev S_ : Shape := ⟨0, ![]⟩
abbrev S1x1x1024 : Shape := ⟨3, ![1, 1, 1024]⟩
abbrev S20 : Shape := ⟨1, ![20]⟩
abbrev S8x128x1x1024 : Shape := ⟨4, ![8, 128, 1, 1024]⟩
abbrev S1x1x20x1 : Shape := ⟨4, ![1, 1, 20, 1]⟩
abbrev S8x128x20x1024 : Shape := ⟨4, ![8, 128, 20, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S1024, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S8x128x1024, .f32⟩
  | .hbm, ⟨6, _⟩ => ⟨S8x128x1024, .f32⟩
  | .hbm, ⟨7, _⟩ => ⟨S_, .f32⟩
  | .hbm, ⟨8, _⟩ => ⟨S8x128x1024, .f32⟩
  | .hbm, ⟨9, _⟩ => ⟨S8x128x1024, .f32⟩
  | .hbm, ⟨10, _⟩ => ⟨S_, .f32⟩
  | .hbm, ⟨11, _⟩ => ⟨S8x128x1024, .f32⟩
  | .hbm, ⟨12, _⟩ => ⟨S8x128x1024, .f32⟩
  | .hbm, ⟨13, _⟩ => ⟨S_, .f32⟩
  | .hbm, ⟨14, _⟩ => ⟨S8x128x1024, .f32⟩
  | .hbm, ⟨15, _⟩ => ⟨S8x128x1024, .f32⟩
  | .hbm, ⟨16, _⟩ => ⟨S1x1x1024, .f32⟩
  | .hbm, ⟨17, _⟩ => ⟨S8x128x1024, .f32⟩
  | .hbm, ⟨18, _⟩ => ⟨S8x128x1024, .f32⟩
  | .hbm, ⟨19, _⟩ => ⟨S8x128x1024, .i32⟩
  | .hbm, ⟨20, _⟩ => ⟨S20, .i32⟩
  | .hbm, ⟨21, _⟩ => ⟨S8x128x1x1024, .i32⟩
  | .hbm, ⟨22, _⟩ => ⟨S1x1x20x1, .i32⟩
  | .hbm, ⟨23, _⟩ => ⟨S8x128x20x1024, .i32⟩
  | .hbm, ⟨24, _⟩ => ⟨S8x128x20x1024, .i32⟩
  | .hbm, ⟨25, _⟩ => ⟨S8x128x20x1024, .i1⟩
  | .hbm, ⟨26, _⟩ => ⟨S8x128x20x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S8x128x1024 : S_.BroadcastsInDim S8x128x1024 (![] : Fin 0 → Fin S8x128x1024.rank)
  bcast_S1024_S1x1x1024_2 : S1024.BroadcastsInDim S1x1x1024 (![2] : Fin 1 → Fin S1x1x1024.rank)
  bcast_S1x1x1024_S8x128x1024_0_1_2 : S1x1x1024.BroadcastsInDim S8x128x1024 (![0, 1, 2] : Fin 3 → Fin S8x128x1024.rank)
  bcast_S8x128x1024_S8x128x1x1024_0_1_3 : S8x128x1024.BroadcastsInDim S8x128x1x1024 (![0, 1, 3] : Fin 3 → Fin S8x128x1x1024.rank)
  bcast_S20_S1x1x20x1_2 : S20.BroadcastsInDim S1x1x20x1 (![2] : Fin 1 → Fin S1x1x20x1.rank)
  bcast_S8x128x1x1024_S8x128x20x1024_0_1_2_3 : S8x128x1x1024.BroadcastsInDim S8x128x20x1024 (![0, 1, 2, 3] : Fin 4 → Fin S8x128x20x1024.rank)
  bcast_S1x1x20x1_S8x128x20x1024_0_1_2_3 : S1x1x20x1.BroadcastsInDim S8x128x20x1024 (![0, 1, 2, 3] : Fin 4 → Fin S8x128x20x1024.rank)

variable [Facts₀]

class Facts : Prop extends Facts₀ where

variable [Facts]
-- ==== Proof.SpikeSpec.lean ====
/-
  The spike train, entry by entry.

  A feature value `x` and a neuron's scale `s` give a latency `(1 - min 1 (max 0 x)) · 20 · s`; rounded toward zero to a
  32-bit integer it names the one time step, of twenty, at which the neuron fires. Entry `(b, r, k, n)` of the result
  (batch, sequence position, time step, neuron) is `1` when that integer is `k` and `0` otherwise; it depends on the
  features only through entry `(b, r, n)` and on the scales only through entry `n`.

  The indicator becomes a float in one of two spellings: the one-bit answer of the comparison read unsigned, or
  the same bit widened with zeros to 32 bits and read signed. On the extended reals both are the number `0` or `1`
  (`sitofp_widened_bit`): a word whose top 31 bits are zero is the same integer signed or unsigned.
-/
import Idealize.ShloMosaic.PureOps.Ideal
import Idealize.ShloMosaic.Lib.ValueIdx

noncomputable section

namespace Cert.SpikeSpec

open Idealize.ShloMosaic Idealize.ShloMosaic.ValueIdx

variable {F : FTy → Type} [FloatOps F]

/-- The latency of one neuron, still a float: the feature clamped to `[0, 1]` (first from below, then from above),
    taken from `1`, scaled by the number of time steps `20` and then by the neuron's scale. The three constants are the
    float words of `0`, `1` and `20`. -/
def latency (x s : F .f32) : F .f32 :=
  FloatOps.mulf
    (FloatOps.mulf
      (FloatOps.subf (FloatOps.ofBits .f32 0x3F800000#32)
        (FloatOps.minimumf (FloatOps.ofBits .f32 0x3F800000#32) (FloatOps.maximumf (FloatOps.ofBits .f32 0x00000000#32) x)))
      (FloatOps.ofBits .f32 0x41A00000#32))
    s

/-- One entry of the spike train: does the latency, rounded toward zero to a 32-bit integer, equal the time step `k`?
    The one-bit answer is widened with zeros to 32 bits and read as a signed integer into a float. -/
def spikeAt (x s : F .f32) (k : Nat) : F .f32 :=
  FloatOps.sitofp .f32 ((IntOp.cmpi .eq (FloatOps.fptosi 32 (latency x s)) (BitVec.ofNat 32 k)).setWidth 32)

/-- The whole result `[8, 128, 20, 1024]` as one function of the features `[8, 128, 1024]` and the scales `[1024]`:
    entry `(b, r, k, n)` reads feature `(b, r, n)`, scale `n` and the time step `k`. -/
def spikes (x : (⟨3, ![8, 128, 1024]⟩ : Shape).Idx → F .f32) (s : (⟨1, ![1024]⟩ : Shape).Idx → F .f32) :
    (⟨4, ![8, 128, 20, 1024]⟩ : Shape).Idx → F .f32 :=
  fun i => spikeAt (x (ix3 (i 0) (i 1) (i 3))) (s (ix1 (i 3))) (i 2).val

/-- A one-bit word widened with zeros to 32 bits is, read signed, the bit itself (both of its values checked). -/
theorem toInt_widened_bit : ∀ b : BitVec 1, (b.setWidth 32).toInt = (b.toNat : Int) := by decide

/-- On the extended reals the widened bit read signed and the bit read unsigned are the same number, `0` or `1`. -/
theorem sitofp_widened_bit (b : BitVec 1) :
    FloatOps.sitofp (F := Ideal) .f32 (b.setWidth 32) = FloatOps.uitofp (F := Ideal) .f32 b := by
  show (((b.setWidth 32).toInt : ℝ) : EReal) = ((b.toNat : ℝ) : EReal)
  rw [toInt_widened_bit b]; simp

end Cert.SpikeSpec

end
-- ==== Proof.KernelBlock.lean ====
/-
  What the kernel's body stores, read at one index of its block.

  At a grid point the body holds a `[1, 64, 1024]` block of features and all `[1024]` scales, and stores a
  `[1, 64, 20, 1024]` block. Its arithmetic happens on the `[64, 1024]` view of the feature block, with the scales
  broadcast along the 64 rows; the integer latencies are then given a unit axis, broadcast along twenty time steps
  and compared with each entry's own time coordinate; the bit, widened and read into a float, is stored under a
  leading unit axis. Every one of these layout steps only renames the index, so entry `(0, r, k, n)` of what is
  stored is `SpikeSpec.spikeAt` of feature `(0, r, n)`, scale `n` and time step `k` — for any reading of the floats.
-/
import proofs.«127202_j36000415875202_2_alg».proof.Proof.Gen.KernelIdeal.Skeleton
import proofs.«127202_j36000415875202_2_alg».proof.Proof.SpikeSpec
import Idealize.ShloMosaic.Lib.Pipeline.Value

noncomputable section

namespace Cert.KernelIdeal.Block

open Cert.KernelIdeal Cert.KernelIdeal.Gen Cert.SpikeSpec Idealize.ShloMosaic Idealize.ShloMosaic.ValueIdx

variable {F : FTy → Type} [FloatOps F]

/-- The `[1, 64, 1024]` feature block viewed `[64, 1024]`: entry `(r, n)` is entry `(0, r, n)` (same row-major place). -/
theorem rows_apply (v0 : Vec F S1x64x1024 .f32) (r : Fin 64) (n : Fin 1024) :
    shapeCast S64x1024 v0 shapeCasts_S1x64x1024_S64x1024 (ix2 r n) = v0 (ix3 (0 : Fin 1) r n) :=
  shapeCast_apply v0 _ (ix2 r n) (ix3 (0 : Fin 1) r n) (by
    rw [Shape.rowMajor_val_three, Shape.rowMajor_val_two]
    show (0 * 64 + r.val) * 1024 + n.val = r.val * 1024 + n.val
    omega)

/-- The scales given a unit axis and broadcast along the 64 rows: entry `(r, n)` is scale `n`. -/
theorem scale_apply (v2 : Vec F S1024 .f32) (r : Fin 64) (n : Fin 1024) :
    broadcastTo S64x1024 (shapeCast S1x1024 v2 shapeCasts_S1024_S1x1024) broadcasts_S1x1024_S64x1024 (ix2 r n)
      = v2 (ix1 n) := by
  refine (broadcastTo_apply _ _ (ix2 r n) (ix2 (0 : Fin 1) n) (fun a => ?_)).trans ?_
  · match a with
    | ⟨0, _⟩ => show (0 : Nat) = if (1 : Nat) = 1 then 0 else r.val; rw [if_pos rfl]
    | ⟨1, _⟩ => show n.val = if (1024 : Nat) = 1 then 0 else n.val; rw [if_neg (by decide)]
  · exact shapeCast_apply v2 _ (ix2 (0 : Fin 1) n) (ix1 n) (by
      rw [Shape.rowMajor_val_one, Shape.rowMajor_val_two]
      show n.val = 0 * 1024 + n.val
      omega)

/-- The integer latencies `[64, 1024]` given a unit time axis and broadcast along the twenty time steps: entry
    `(r, k, n)` is latency `(r, n)`, whatever `k`. -/
theorem along_time_apply (lat : IVec S64x1024 32) (r : Fin 64) (k : Fin 20) (n : Fin 1024) :
    broadcastTo S64x20x1024 (shapeCast S64x1x1024 lat shapeCasts_S64x1024_S64x1x1024) broadcasts_S64x1x1024_S64x20x1024
      (ix3 r k n) = lat (ix2 r n) := by
  refine (broadcastTo_apply _ _ (ix3 r k n) (ix3 r (0 : Fin 1) n) (fun a => ?_)).trans ?_
  · match a with
    | ⟨0, _⟩ => show r.val = if (64 : Nat) = 1 then 0 else r.val; rw [if_neg (by decide)]
    | ⟨1, _⟩ => show (0 : Nat) = if (1 : Nat) = 1 then 0 else k.val; rw [if_pos rfl]
    | ⟨2, _⟩ => show n.val = if (1024 : Nat) = 1 then 0 else n.val; rw [if_neg (by decide)]
  · exact shapeCast_apply lat _ (ix3 r (0 : Fin 1) n) (ix2 r n) (by
      rw [Shape.rowMajor_val_two, Shape.rowMajor_val_three]
      show r.val * 1024 + n.val = (r.val * 1 + 0) * 1024 + n.val
      omega)

/-- ENTRY `(0, r, k, n)` OF WHAT THE BODY STORES is the spike of feature `(0, r, n)` and scale `n` at time step `k`. -/
theorem pay_apply (v0 : Vec F S1x64x1024 .f32) (v2 : Vec F S1024 .f32) (r : Fin 64) (k : Fin 20) (n : Fin 1024) :
    k0_pay1 v0 v2 (ix4 (0 : Fin 1) r k n) = spikeAt (v0 (ix3 (0 : Fin 1) r n)) (v2 (ix1 n)) k.val := by
  unfold k0_pay1
  dsimp only
  refine (shapeCast_apply _ _ (ix4 (0 : Fin 1) r k n) (ix3 r k n) ?_).trans ?_
  · rw [Shape.rowMajor_val_three, Shape.rowMajor_val_four]
    show (r.val * 20 + k.val) * 1024 + n.val = ((0 * 64 + r.val) * 20 + k.val) * 1024 + n.val
    omega
  unfold spikeAt
  refine congrArg (fun w : BitVec 1 => FloatOps.sitofp .f32 (w.setWidth 32)) ?_
  refine congrArg₂ (IntOp.cmpi .eq) ?_ (iota_single_apply .tc S64x20x1024 32 1 _ (ix3 r k n))
  refine (along_time_apply _ r k n).trans ?_
  unfold latency
  refine congrArg (FloatOps.fptosi 32) ?_
  refine congrArg₂ FloatOps.mulf ?_ (scale_apply v2 r n)
  exact congrArg (fun y => FloatOps.mulf (FloatOps.subf (FloatOps.ofBits .f32 0x3F800000#32)
    (FloatOps.minimumf (FloatOps.ofBits .f32 0x3F800000#32) (FloatOps.maximumf (FloatOps.ofBits .f32 0x00000000#32) y)))
    (FloatOps.ofBits .f32 0x41A00000#32)) (rows_apply v0 r n)

/-- The same for every index of the block: its leading coordinate can only be `0`. -/
theorem pay_eq (v0 : Vec F S1x64x1024 .f32) (v2 : Vec F S1024 .f32) :
    k0_pay1 v0 v2 = fun j => spikeAt (v0 (ix3 (0 : Fin 1) (j 1) (j 3))) (v2 (ix1 (j 3))) (j 2).val := by
  funext j
  obtain ⟨a, r, k, n, rfl⟩ : ∃ (a : Fin 1) (r : Fin 64) (k : Fin 20) (n : Fin 1024), j = ix4 a r k n :=
    ⟨j 0, j 1, j 2, j 3, eq_ix4 j⟩
  obtain rfl : a = 0 := Subsingleton.elim _ _
  exact pay_apply v0 v2 r k n

end Cert.KernelIdeal.Block

end
-- ==== Proof.KernelWhole.lean ====
/-
  From the kernel's blocks to its whole result array.

  The grid has 8 × 2 points. At point `(b, h)` the kernel is handed rows `64 h … 64 h + 63` of batch `b` of the features
  (a `[1, 64, 1024]` block), all the scales, and writes back the `[1, 64, 20, 1024]` block of the result at batch `b`, the
  same rows, every time step and every neuron. So the feature block and the result block sit at the same batch and
  row offsets, and the other axes are whole: entry `(0, r, k, n)` of the block is entry `(b, 64 h + r, k, n)` of the
  array, which reads feature `(b, 64 h + r, n)` — entry `(0, r, n)` of the feature block — and scale `n`. Hence what a
  point writes back is its block of `SpikeSpec.spikes` of the two argument arrays. The sixteen blocks tile the array (batch
  `b` and rows `64 h …` are found at the point `(b, h)`), so after the run the array is `spikes` everywhere.
-/
import proofs.«127202_j36000415875202_2_alg».proof.Proof.Gen.KernelIdeal.Value
import proofs.«127202_j36000415875202_2_alg».proof.Proof.KernelBlock

set_option maxRecDepth 16384

noncomputable section

namespace Cert.KernelIdeal.Whole

open Cert.KernelIdeal Cert.KernelIdeal.Gen Cert.KernelIdeal.Block Cert.SpikeSpec
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The all-zero offsets of a whole-block access, as constant functions. -/
theorem zero1 : (![0] : Fin 1 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The printed index maps, decided over the sixteen grid points: the feature block moves with the result block on the
    batch and row axes and stays at `0` on the neuron axis; the scales' block, and the result block on the time and neuron
    axes, stay at `0`; the result block's batch index is at most `7`, its row-block index at most `1`. -/
theorem block_indices : ∀ t : Fin cfg0.N,
    win0_0.index t (0 : Fin 3) = win0_2.index t (0 : Fin 4)
    ∧ win0_0.index t (1 : Fin 3) = win0_2.index t (1 : Fin 4)
    ∧ win0_0.index t (2 : Fin 3) = 0
    ∧ win0_1.index t (0 : Fin 1) = 0
    ∧ win0_2.index t (2 : Fin 4) = 0
    ∧ win0_2.index t (3 : Fin 4) = 0
    ∧ win0_2.index t (0 : Fin 4) ≤ 7 ∧ win0_2.index t (1 : Fin 4) ≤ 1 :=
  (by decide +kernel : ∀ t : Fin grid0.N, _)

/-- Every batch `0 … 7` and every row block `0, 1` is SOME grid point's (decided). -/
theorem every_block : ∀ (q0 : Fin 8) (q1 : Fin 2), ∃ t : Fin cfg0.N, win0_2.index t = ![q0.val, q1.val, 0, 0] :=
  (by decide +kernel : ∀ (q0 : Fin 8) (q1 : Fin 2), ∃ t : Fin grid0.N, win0_2.index t = ![q0.val, q1.val, 0, 0])

/-- What point `t` writes back is block `t` of `spikes` of the argument arrays as the region finds them. -/
theorem flushed_eq (c : Dev nD) (t : Fin cfg0.N) :
    (dats m 0 c).flushed 2 t = ((cfg0.win 2).blk t).view.read (Elt F) (spikes (V m c main_arg0) (V m c main_arg1)) := by
  rw [Value.flushed2]
  unfold out0_2
  rw [View.canon_unit_zero zero4]
  simp only [View.ld_unit_zero (S := S1x64x1024) zero3, View.ld_unit_zero (S := S1024) zero1]
  rw [pay_eq]
  obtain ⟨e0, e1, e2, e3, e4, e5, -, -⟩ := block_indices t
  funext j
  show spikeAt (V m c main_arg0 (((cfg0.win 0).blk t).view.emb (ix3 (0 : Fin 1) (j 1) (j 3))))
        (V m c main_arg1 (((cfg0.win 1).blk t).view.emb (ix1 (j 3)))) (j 2).val
      = spikeAt (V m c main_arg0 (ix3 ((((cfg0.win 2).blk t).view.emb j) 0) ((((cfg0.win 2).blk t).view.emb j) 1) ((((cfg0.win 2).blk t).view.emb j) 3)))
        (V m c main_arg1 (ix1 ((((cfg0.win 2).blk t).view.emb j) 3))) ((((cfg0.win 2).blk t).view.emb j) 2).val
  have h0 : ((cfg0.win 0).blk t).view.emb (ix3 (0 : Fin 1) (j 1) (j 3))
      = ix3 ((((cfg0.win 2).blk t).view.emb j) 0) ((((cfg0.win 2).blk t).view.emb j) 1) ((((cfg0.win 2).blk t).view.emb j) 3) := by
    funext a; apply Fin.ext
    match a with
    | ⟨0, _⟩ => show win0_0.index t (0 : Fin 3) * 1 + 1 * 0 = win0_2.index t (0 : Fin 4) * 1 + 1 * (j 0).val; have hj : (j 0).val < 1 := (j 0).isLt; omega
    | ⟨1, _⟩ => show win0_0.index t (1 : Fin 3) * 64 + 1 * (j 1).val = win0_2.index t (1 : Fin 4) * 64 + 1 * (j 1).val; omega
    | ⟨2, _⟩ => show win0_0.index t (2 : Fin 3) * 1024 + 1 * (j 3).val = win0_2.index t (3 : Fin 4) * 1024 + 1 * (j 3).val; omega
  have h1 : ((cfg0.win 1).blk t).view.emb (ix1 (j 3)) = ix1 ((((cfg0.win 2).blk t).view.emb j) 3) := by
    funext a; apply Fin.ext
    match a with
    | ⟨0, _⟩ => show win0_1.index t (0 : Fin 1) * 1024 + 1 * (j 3).val = win0_2.index t (3 : Fin 4) * 1024 + 1 * (j 3).val; omega
  have h2 : ((((cfg0.win 2).blk t).view.emb j) 2).val = (j 2).val := by
    show win0_2.index t (2 : Fin 4) * 20 + 1 * (j 2).val = (j 2).val; omega
  rw [h0, h1, h2]
  rfl

/-- An index of the array is in point `t`'s block iff each coordinate is in the block's range on its axis. -/
theorem mem_blk (t : Fin cfg0.N) (i : S8x128x20x1024.Idx) :
    i ∈ ((cfg0.win 2).blk t).view.set ↔ ∀ a : Fin 4, win0_2.index t a * S1x64x20x1024.size a ≤ (i a).val
      ∧ (i a).val < win0_2.index t a * S1x64x20x1024.size a + S1x64x20x1024.size a := by
  show i ∈ ((View.whole main_v0).slice (win0_2.rect t)).set ↔ _
  rw [View.set_slice_whole, Rect.mem_set_unit]
  exact Iff.rfl

/-- Every index `(b, p, k, n)` of the array is in the block of the point whose block indices are `(b, p / 64, 0, 0)`. -/
theorem covered (i : S8x128x20x1024.Idx) :
    ∃ t : Fin cfg0.N, (cfg0.win 2).flush t = true ∧ i ∈ ((cfg0.win 2).blk t).view.set := by
  have hi0 : (i 0).val < 8 := (i 0).isLt
  have hi1 : (i 1).val < 128 := (i 1).isLt
  have hi2 : (i 2).val < 20 := (i 2).isLt
  have hi3 : (i 3).val < 1024 := (i 3).isLt
  obtain ⟨t, ht⟩ := every_block ⟨(i 0).val, hi0⟩ ⟨(i 1).val / 64, by omega⟩
  have q0 : win0_2.index t (0 : Fin 4) = (i 0).val := congrFun ht 0
  have q1 : win0_2.index t (1 : Fin 4) = (i 1).val / 64 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 20 ≤ (i 2).val ∧ (i 2).val < win0_2.index t (2 : Fin 4) * 20 + 20; omega
  | ⟨3, _⟩ => show win0_2.index t (3 : Fin 4) * 1024 ≤ (i 3).val ∧ (i 3).val < win0_2.index t (3 : Fin 4) * 1024 + 1024; omega

/-- THE ARRAY after the run is `spikes` of the two argument arrays, everywhere. -/
theorem final (c : Dev nD) :
    (dats m 0 c).arrAt 2 cfg0.N = spikes (m ((c : Thread nD τ).loc main_arg0)) (m ((c : Thread nD τ).loc main_arg1)) :=
  (dats m 0 c).arrAt_eq_of_cover 2 (spikes (V m c main_arg0) (V m c main_arg1)) (fun t _ => flushed_eq m c t) covered

/-- The kernel's run, read: the result array ends at `spikes` of the arguments, the arguments unchanged. -/
theorem run : θ_run defs (onTc (τ := τ) (main (F := F))) ⟨m, fun _ => 0, ρ⟩ fun r => ∀ c : Dev nD,
      r.2.mem ((c : Thread nD τ).loc main_v0) = spikes (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefSpikes.lean ====
/-
  The reference computes the spike train of `SpikeSpec`.

  Its program clamps the features, takes them from `1`, scales by `20` and by the neuron's scale broadcast over batch
  and position, rounds toward zero to 32-bit integers, lays that `[8, 128, 1024]` array out along a new axis of twenty
  time steps and compares it with the time step's own number `0 … 19` laid out along the other three axes. Read at one
  index `(b, r, k, n)` every layout step only renames the index: the integer read is the one at `(b, r, n)`, the scale
  the one at `n`, the number compared with is `k`. The comparison's bit is then read unsigned into a float, which on
  the extended reals is the same number as the widened bit read signed (`SpikeSpec.sitofp_widened_bit`).
-/
import proofs.«127202_j36000415875202_2_alg».proof.Proof.Gen.ReferenceIdeal.Read
import proofs.«127202_j36000415875202_2_alg».proof.Proof.SpikeSpec

noncomputable section

namespace Cert.ReferenceIdeal.RefSpikes

open Cert.ReferenceIdeal Cert.ReferenceIdeal.Read Cert.SpikeSpec Idealize.ShloMosaic Idealize.ShloMosaic.ValueIdx

/-- Through the two broadcasts that add the time axis, entry `(b, r, k, n)` reads the integer latency at `(b, r, n)`. -/
theorem feature_idx (i : S8x128x20x1024.Idx) : idx_main_v10 (idx_main_v12 i) = ix3 (i 0) (i 1) (i 3) :=
  funext fun a => Fin.ext (by match a with | ⟨0, _⟩ => rfl | ⟨1, _⟩ => rfl | ⟨2, _⟩ => rfl)

/-- Through the two broadcasts of the scales over batch and position, that entry reads scale `n`. -/
theorem scale_idx (i : S8x128x20x1024.Idx) :
    idx_main_v5 (idx_main_v6 (idx_main_v10 (idx_main_v12 i))) = ix1 (i 3) :=
  funext fun a => Fin.ext (by match a with | ⟨0, _⟩ => rfl)

/-- The reference's last stage, on the extended reals, is `spikes` of its two arguments: every operation read at an
    index, the indices renamed, and the two spellings of the indicator identified. -/
theorem stage_eq (x0 : S8x128x1024.Idx → Ideal .f32) (x1 : S1024.Idx → Ideal .f32) :
    val_main_v15 (F := Ideal) x0 x1 = spikes x0 x1 := by
  funext i
  rw [val_main_v15_apply, val_main_v14_apply, val_main_v12_apply, val_main_v10_apply, val_main_v8_apply,
    val_main_v7_apply, val_main_v4_apply, val_main_v2_apply, val_main_v1_apply, val_main_cst_1_apply,
    val_main_v0_apply, val_main_call0_v4_apply, val_main_call0_v3_apply, val_main_cst_0_apply,
    val_main_call0_v2_apply, val_main_call0_v1_apply, val_main_call0_v0_apply, val_main_cst_apply,
    val_main_v3_apply, val_main_cst_2_apply, val_main_v6_apply, val_main_v5_apply,
    val_main_v13_apply, val_main_v11_apply, val_main_v9_apply, scale_idx, feature_idx]
  unfold spikes spikeAt
  rw [sitofp_widened_bit]
  rfl

end Cert.ReferenceIdeal.RefSpikes

end
-- ==== Proof.lean ====
/-
  A latency-coded spike train: the kernel and its reference compute the same array.

  From features `[8, 128, 1024]` and per-neuron scales `[1024]` both programs produce `[8, 128, 20, 1024]`: for batch `b`,
  position `p`, time step `k` and neuron `n`, the entry is `1` when the latency `(1 - min 1 (max 0 x)) · 20 · s` of feature
  `x = (b, p, n)` and scale `s = n`, rounded toward zero to a 32-bit integer, equals `k`, and `0` otherwise
  (`SpikeSpec.spikes`). The two programs apply the SAME operations in the same order to each feature — clamp from below, clamp
  from above, subtract from one, scale twice, round — so no law of arithmetic is needed and the inputs' finiteness is
  never used; they differ only in layout and in how the indicator bit becomes a float:

  * the kernel works block by block over a grid of 8 × 2 points, 64 positions of one batch at a time, compares against an
    iota along the time axis of its block, and reads the bit widened to 32 bits as a signed integer. One entry of a
    block is read in `KernelBlock`, the blocks are assembled into the whole array in `KernelWhole`;
  * the reference works on whole arrays, compares against `0 … 19` broadcast from a vector, and reads the bit unsigned
    (`RefSpikes`). On the extended reals both readings of a bit are the number `0` or `1`.

  The three frames are the generated ones (the reference's is its generated run with the result dropped), and the kernel's
  idealization rewrote nothing, so that conjunct is `True`.
-/
import proofs.«127202_j36000415875202_2_alg».proof.Defs
import proofs.«127202_j36000415875202_2_alg».proof.Proof.Gen.Kernel
import proofs.«127202_j36000415875202_2_alg».proof.Proof.Gen.Kernel.Skeleton
import proofs.«127202_j36000415875202_2_alg».proof.Proof.Gen.Kernel.Launch
import proofs.«127202_j36000415875202_2_alg».proof.Proof.Gen.Kernel.Points
import proofs.«127202_j36000415875202_2_alg».proof.Proof.Gen.Kernel.Frame
import proofs.«127202_j36000415875202_2_alg».proof.Proof.Gen.KernelIdeal
import proofs.«127202_j36000415875202_2_alg».proof.Proof.Gen.KernelIdeal.Skeleton
import proofs.«127202_j36000415875202_2_alg».proof.Proof.Gen.KernelIdeal.Launch
import proofs.«127202_j36000415875202_2_alg».proof.Proof.Gen.KernelIdeal.Points
import proofs.«127202_j36000415875202_2_alg».proof.Proof.Gen.KernelIdeal.Frame
import proofs.«127202_j36000415875202_2_alg».proof.Proof.Gen.ReferenceIdeal
import proofs.«127202_j36000415875202_2_alg».proof.Proof.Gen.Pre_finite_inputs
import proofs.«127202_j36000415875202_2_alg».proof.Proof.Gen.KernelIdeal.Value
import proofs.«127202_j36000415875202_2_alg».proof.Proof.Gen.ReferenceIdeal.Run
import proofs.«127202_j36000415875202_2_alg».proof.Proof.Gen.ReferenceIdeal.Read
import proofs.«127202_j36000415875202_2_alg».proof.Proof.KernelWhole
import proofs.«127202_j36000415875202_2_alg».proof.Proof.RefSpikes
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run, read back operation by operation, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- On the extended reals the kernel's result array ends at `spikes` of its arguments (`KernelWhole.run`) and the
    reference's at its last stage of arguments that agree with them, which is `spikes` of them too
    (`RefSpikes.stage_eq`). -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefSpikes.stage_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
